-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S128000x128 : Shape := ⟨2, ![128000, 128]⟩
abbrev S128x1024 : Shape := ⟨2, ![128, 1024]⟩
abbrev S_ : Shape := ⟨0, ![]⟩

class Facts : Prop where
  bcast_S_S128000x128 : S_.BroadcastsInDim S128000x128 (![] : Fin 0 → Fin S128000x128.rank)
  reducesTo_S128000x128_S_d0_1 : S128000x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : IVec S4x4096 32) (main_arg1 : FVec F S128000x128 .f32) (main_arg2 : FVec F S128x1024 .f32) : IVec S_ 1 :=
  let main_v0 : FVec F S128000x128 .f32 := Host.absf main_arg1
  let main_cst : FVec F S_ .f32 := constant S_ .f32 0x7F800000#32
  let main_v1 : FVec F S128000x128 .f32 := broadcastInDim S128000x128 ![] bcast_S_S128000x128 main_cst
  let main_v2 : IVec S128000x128 1 := cmpf .olt main_v0 main_v1
  let main_c : IVec S_ 1 := constantI S_ 1 1#1
  let main_v3 : IVec S_ 1 := (fun x v => Host.reduce IntOp.andi x v reducesTo_S128000x128_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_c_2 : IVec S_ 32 := constantI S_ 32 4294839296#32
  let main_v9 : IVec S4x4096 32 := broadcastInDim S4x4096 ![] bcast_S_S4x4096 main_c_2
  let main_v10 : IVec S4x4096 1 := cmpi .sge main_arg0 main_v9
  let main_c_3 : IVec S_ 32 := constantI S_ 32 128000#32
  let main_v11 : IVec S4x4096 32 := broadcastInDim S4x4096 ![] bcast_S_S4x4096 main_c_3
  let main_v12 : IVec S4x4096 1 := cmpi .slt main_arg0 main_v11
  let main_v13 : IVec S4x4096 1 := andi main_v10 main_v12
  let main_c_4 : IVec S_ 1 := constantI S_ 1 1#1
  let main_v14 : IVec S_ 1 := (fun x v => Host.reduce IntOp.andi x v reducesTo_S4x4096_S_d0_1 h_S_) main_v13 main_c_4
  let main_v15 : IVec S_ 1 := andi main_v8 main_v14
  main_v15
-- ==== Kernel.lean ====
abbrev S4x4096 : Shape := ⟨2, ![4, 4096]⟩
abbrev S128000x128 : Shape := ⟨2, ![128000, 128]⟩
abbrev S128x1024 : Shape := ⟨2, ![128, 1024]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x1024 : Shape := ⟨2, ![16384, 1024]⟩
abbrev S4096x128 : Shape := ⟨2, ![4096, 128]⟩
abbrev S4096x1024 : Shape := ⟨2, ![4096, 1024]⟩
abbrev S4x4096x1024 : Shape := ⟨3, ![4, 4096, 1024]⟩

abbrev nBuf : Space → Nat
  | .hbm => 31
  | .vmem => 5
  | .smem => 0
  | _ => 0

abbrev bufTy : (tb : Table) → Fin (tcTables nBuf tb) → BufTy
  | .hbm, ⟨0, _⟩ => ⟨S4x4096, .i32⟩
  | .hbm, ⟨1, _⟩ => ⟨S128000x128, .f32⟩
  | .hbm, ⟨2, _⟩ => ⟨S128x1024, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S16384x128, .bf16⟩
  | .hbm, ⟨28, _⟩ => ⟨S128x1024, .bf16⟩
  | .hbm, ⟨29, _⟩ => ⟨S16384x1024, .f32⟩
  | .hbm, ⟨30, _⟩ => ⟨S4x4096x1024, .f32⟩
  | .local _ .vmem, ⟨0, _⟩ => ⟨S4096x128, .bf16⟩
  | .local _ .vmem, ⟨1, _⟩ => ⟨S4096x128, .bf16⟩
  | .local _ .vmem, ⟨2, _⟩ => ⟨S128x1024, .bf16⟩
  | .local _ .vmem, ⟨3, _⟩ => ⟨S4096x1024, .f32⟩
  | .local _ .vmem, ⟨4, _⟩ => ⟨S4096x1024, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096_S16384 : S4x4096.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4096x1024_S4096x1024_0_0 : ∀ a, (![0, 0] : Fin 2 → Nat) a + S4096x1024.size a ≤ S4096x1024.size a
  h_S4096x1024 : 0 < S4096x1024.numel
  shapeCasts_S16384x1024_S4x4096x1024 : S16384x1024.ShapeCasts S4x4096x1024
  gather_S128000x128_S16384x1_S16384x128_1_0_n_n_0_1_1128_wf : GatherDims.WF S128000x128 S16384x1 S16384x128 [1] [0] [] [0] [] 1 ![1, 128]
  dot_S4096x128_S128x1024_S4096x1024_1_0_0_1_n_n_wf : DotDims.WF S4096x128 S128x1024 S4096x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .bf16 = 32 ∨ (Rect.block (s := S16384x128) S4096x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S16384x1024.size a
  hwx0_2 : ∀ i : grid0.Coords, EltTy.bits .f32 = 32 ∨ (Rect.block (s := S16384x1024) S4096x1024.size (cc0_transform_2 i) (hinb0_2 i)).WholeWords (EltTy.packing .f32)

variable [Facts₀]

def gather_S128000x128_S16384x1_S16384x128_1_0_n_n_0_1_1128 : GatherDims S128000x128 S16384x1 S16384x128 where
  offsetDims := [1]
  collapsedSliceDims := [0]
  operandBatchingDims := []
  startIndicesBatchingDims := []
  startIndexMap := [0]
  indexVectorDim := 1
  sliceSizes := ![1, 128]
  wf := gather_S128000x128_S16384x1_S16384x128_1_0_n_n_0_1_1128_wf
def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096 : Shape := ⟨2, ![4, 4096]⟩
abbrev S128000x128 : Shape := ⟨2, ![128000, 128]⟩
abbrev S128x1024 : Shape := ⟨2, ![128, 1024]⟩
abbrev S128000x1024 : Shape := ⟨2, ![128000, 1024]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S128000x128, .f32⟩
  | .hbm, ⟨2, _⟩ => ⟨S128x1024, .f32⟩
  | .hbm, ⟨3, _⟩ => ⟨S128000x1024, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S1, .i32⟩
  | .hbm, ⟨13, _⟩ => ⟨S_, .i32⟩
  | .hbm, ⟨14, _⟩ => ⟨S4x4096x1, .i32⟩
  | .hbm, ⟨15, _⟩ => ⟨S4x4096x1, .i1⟩
  | .hbm, ⟨16, _⟩ => ⟨S1x1x1, .i32⟩
  | .hbm, ⟨17, _⟩ => ⟨S4x4096x1, .i32⟩
  | .hbm, ⟨18, _⟩ => ⟨S4x4096x1, .i1⟩
  | .hbm, ⟨19, _⟩ => ⟨S4x4096x1, .i1⟩
  | .hbm, ⟨20, _⟩ => ⟨S_, .i1⟩
  | .hbm, ⟨21, _⟩ => ⟨S4x4096, .i1⟩
  | .hbm, ⟨22, _⟩ => ⟨S4x4096x1024, .f32⟩
  | .hbm, ⟨23, _⟩ => ⟨S4x4096x1024, .i1⟩
  | .hbm, ⟨24, _⟩ => ⟨S_, .f32⟩
  | .hbm, ⟨25, _⟩ => ⟨S4x4096x1024, .f32⟩
  | .hbm, ⟨26, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  reducesTo_S4x4096x1_S4x4096_d2 : S4x4096x1.ReducesTo [2] S4x4096
  h_S_ : 0 < S_.numel
  bcast_S4x4096_S4x4096x1024_0_1 : S4x4096.BroadcastsInDim S4x4096x1024 (![0, 1] : Fin 2 → Fin S4x4096x1024.rank)
  bcast_S_S4x4096x1024 : S_.BroadcastsInDim S4x4096x1024 (![] : Fin 0 → Fin S4x4096x1024.rank)
  dot_S128000x128_S128x1024_S128000x1024_1_0_0_1_n_n_wf : DotDims.WF S128000x128 S128x1024 S128000x1024 [1] [0] [0] [1] [] []
  gather_S128000x1024_S4x4096x1_S4x4096x1024_2_0_n_n_0_2_11024_wf : GatherDims.WF S128000x1024 S4x4096x1 S4x4096x1024 [2] [0] [] [0] [] 2 ![1, 1024]

variable [Facts₀]

def dot_S128000x128_S128x1024_S128000x1024_1_0_0_1_n_n : DotDims S128000x128 S128x1024 S128000x1024 where
  lhsContracting := [1]
  rhsContracting := [0]
  lhsNonContracting := [0]
  rhsNonContracting := [1]
  lhsBatch := []
  rhsBatch := []
  wf := dot_S128000x128_S128x1024_S128000x1024_1_0_0_1_n_n_wf
def gather_S128000x1024_S4x4096x1_S4x4096x1024_2_0_n_n_0_2_11024 : GatherDims S128000x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S128000x1024_S4x4096x1_S4x4096x1024_2_0_n_n_0_2_11024_wf

class Facts : Prop extends Facts₀ where

variable [Facts]
-- ==== Proof.Spec.lean ====
/-
  The function both programs compute, stated once over the argument arrays.

  A token id `a` (a signed 32-bit word) names a row of the vocabulary table `E : [128000, 128]`: directly when
  `0 ≤ a`, from the end (`a + 128000`) when `a < 0` (`wrap`). The lookup is defined when the wrapped id lies in
  `[0, 127999]` (`valid`), which is the case exactly for `-128000 ≤ a < 128000` (`InRange`). Entry `(b, s, j)` of the
  result is row `row (x b s)` of `E` times column `j` of the projection `W : [128, 1024]`:
  `∑ k, E[row, k] · W[k, j]` — whether the row is looked up first and then projected, or the whole table
  projected and the projected row looked up, the sum is the same sum of the same 128 products.
-/
import Idealize.ShloMosaic.PureOps.Ideal
import Idealize.ShloMosaic.Lib.ValueIdx

noncomputable section

open scoped BigOperators

namespace Cert.Embed

open Idealize.ShloMosaic Idealize.ShloMosaic.ValueIdx

/-- A token id for which row lookup is defined: it names a row directly (`0 ≤ a < 128000`) or from the end
    (`-128000 ≤ a < 0`). -/
def InRange (a : BitVec 32) : Prop := -128000 ≤ a.toInt ∧ a.toInt < 128000

/-- A negative id counts from the end of the table: `a + 128000` when `a < 0`, else `a`. -/
def wrap (a : BitVec 32) : BitVec 32 := Scalar.select (IntOp.cmpi .slt a 0#32) (IntOp.addi a 128000#32) a

/-- The test that the wrapped id names a row: `0 ≤ wrap a` and `wrap a ≤ 127999`, as one bit. -/
def valid (a : BitVec 32) : BitVec 1 :=
  IntOp.andi (IntOp.cmpi .sge (wrap a) 0#32) (IntOp.cmpi .sle (wrap a) 127999#32)

/-- The signed value of a wrapped id in range is in `[0, 127999]`. -/
theorem wrap_toInt {a : BitVec 32} (h : InRange a) : 0 ≤ (wrap a).toInt ∧ (wrap a).toInt ≤ 127999 := by
  obtain ⟨h0, h1⟩ := h
  unfold wrap IntOp.cmpi IntOp.addi Scalar.select
  by_cases hneg : a.toInt < 0
  · have hs : a.slt 0#32 = true := by rw [BitVec.slt_eq_decide]; simpa using hneg
    simp only [hs, BitVec.ofBool_true, if_true]
    rw [BitVec.toInt_add]
    have : (128000#32 : BitVec 32).toInt = 128000 := by decide
    rw [this]
    have hb : (a.toInt + 128000).bmod (2 ^ 32) = a.toInt + 128000 := by
      apply Int.bmod_eq_of_le <;> omega
    rw [hb]; omega
  · have hs : a.slt 0#32 = false := by rw [BitVec.slt_eq_decide]; simpa using hneg
    simp only [hs, BitVec.ofBool_false]
    rw [if_neg (by decide)]
    omega

/-- An id in range passes the test. -/
theorem valid_of_inRange {a : BitVec 32} (h : InRange a) : valid a = 1#1 := by
  obtain ⟨h0, h1⟩ := wrap_toInt h
  unfold valid IntOp.andi IntOp.cmpi
  have e0 : (0#32 : BitVec 32).sle (wrap a) = true := by rw [BitVec.sle_eq_decide]; simpa using h0
  have e1 : (wrap a).sle 127999#32 = true := by
    rw [BitVec.sle_eq_decide]
    have : (127999#32 : BitVec 32).toInt = 127999 := by decide
    simpa [this] using h1
  simp only [e0, e1]; decide

/-- The table row a token id reads: the wrapped id's signed value, clamped into `[0, 127999]`. -/
def row (a : BitVec 32) : Fin 128000 := ⟨min (wrap a).toInt.toNat 127999, by omega⟩

/-- Entry `(b, s, j)` of the result: the looked-up row of `E` against column `j` of `W`. -/
def entry (x : (⟨2, ![4, 4096]⟩ : Shape).Idx → BitVec 32) (E : (⟨2, ![128000, 128]⟩ : Shape).Idx → EReal)
    (W : (⟨2, ![128, 1024]⟩ : Shape).Idx → EReal) (b : Fin 4) (s : Fin 4096) (j : Fin 1024) : EReal :=
  ∑ k : Fin 128, E (ix2 (row (x (ix2 b s))) k) * W (ix2 k j)

/-- The whole result array `[4, 4096, 1024]` as one function of the three argument arrays. -/
def G (x : (⟨2, ![4, 4096]⟩ : Shape).Idx → BitVec 32) (E : (⟨2, ![128000, 128]⟩ : Shape).Idx → EReal)
    (W : (⟨2, ![128, 1024]⟩ : Shape).Idx → EReal) : (⟨3, ![4, 4096, 1024]⟩ : Shape).Idx → EReal :=
  fun i => entry x E W (i 0) (i 1) (i 2)

theorem G_apply (x : (⟨2, ![4, 4096]⟩ : Shape).Idx → BitVec 32) (E : (⟨2, ![128000, 128]⟩ : Shape).Idx → EReal)
    (W : (⟨2, ![128, 1024]⟩ : Shape).Idx → EReal) (b : Fin 4) (s : Fin 4096) (j : Fin 1024) :
    G x E W (ix3 b s j) = entry x E W b s j := rfl

end Cert.Embed

end
-- ==== Proof.PreRange.lean ====
/-
  The precondition read back at one token id. The precondition's value is one bit: the conjunction of "every entry
  of the two float tables is finite" with "every token id `a` has `-128000 ≤ a` and `a < 128000`", the latter a
  conjunction over all `4 · 4096` ids of the two signed comparisons. When the bit is 1 each conjunct is 1, so each
  id is in the range where row lookup is defined.
-/
import proofs.«177015_j47837345743217_2_alg».proof.Pre_finite_inputs
import proofs.«177015_j47837345743217_2_alg».proof.Proof.Spec
import Idealize.ShloMosaic.Lib.ReduceAll
import Idealize.ShloMosaic.Lib.ValueIdx

noncomputable section

namespace Cert.Embed

open Idealize.ShloMosaic Idealize.ShloMosaic.ValueIdx

instance : Subsingleton Cert.Pre_finite_inputs.S_.Idx := ⟨fun a b => funext fun d => d.elim0⟩

/-- Under the precondition every token id lies in `[-128000, 128000)`. -/
theorem inRange_of_pre {F : FTy → Type} [FloatOps F] [Cert.Pre_finite_inputs.Facts]
    (x : IVec Cert.Pre_finite_inputs.S4x4096 32) (E : FVec F Cert.Pre_finite_inputs.S128000x128 .f32)
    (W : FVec F Cert.Pre_finite_inputs.S128x1024 .f32)
    (h : Cert.Pre_finite_inputs.fn (F := F) x E W = fun _ => 1#1) (i : Cert.Pre_finite_inputs.S4x4096.Idx) :
    InRange (x i) := by
  have e := congrFun h ix0
  dsimp only [Cert.Pre_finite_inputs.fn] at e
  have e14 := (IntOp.andi_eq_one.1 e).2
  have ei := Host.reduce_andi_all _ _ _ _ _ e14 i
  obtain ⟨hge, hlt⟩ := IntOp.andi_eq_one.1 ei
  have hge' := IntOp.cmpi_sge.1 hge
  have hlt' := IntOp.cmpi_slt.1 hlt
  have c0 : (4294839296#32 : BitVec 32).toInt = -128000 := by decide
  have c1 : (128000#32 : BitVec 32).toInt = 128000 := by decide
  simp only [broadcastInDim, constantI] at hge' hlt'
  rw [c0] at hge'
  rw [c1] at hlt'
  exact ⟨hge', hlt'⟩

end Cert.Embed

end
-- ==== Proof.LibReduceAnd.lean ====
/-
  A conjunction-reduction of an array that is constant is that constant: a one-operand reduction whose body is the
  bitwise AND, over an operand every element of which is the word `v`, from an initial value whose element is `v`,
  is `v` at every result index (AND is idempotent, so the fold never leaves `v`, however many elements — none
  included — reduce to the index). The case used: every bit of a one-bit mask is 1, so the reduced mask is 1.
-/
import Idealize.ShloMosaic.PureOps.Reduce

namespace Cert.LibReduceAnd

open Idealize.ShloMosaic

/-- A left fold of the bitwise AND from `v` over a list of elements all equal to `v` is `v`. -/
theorem foldl_andi_const {ι : Type} {w : Nat} (v : BitVec w) (x : ι → BitVec w) (hx : ∀ i, x i = v) (l : List ι) :
    l.foldl (fun r i => IntOp.andi r (x i)) v = v := by
  induction l with
  | nil => rfl
  | cons a l ih =>
    rw [List.foldl_cons, hx a, show IntOp.andi v v = v from BitVec.and_self]
    exact ih

/-- A reduction by bitwise AND of an operand every element of which is `v`, from an initial value whose element is
    `v`, is `v` at every result index. -/
theorem reduce_andi_const {s t u : Shape} {axes : List (Fin s.rank)} {w : Nat} (v : BitVec w) (x : s.Idx → BitVec w)
    (init : u.Idx → BitVec w) (h : s.ReducesTo axes t) (hu : 0 < u.numel) (hx : ∀ i, x i = v)
    (hinit : init (Shape.Idx.first hu) = v) (j : t.Idx) :
    Host.reduce IntOp.andi x init h hu j = v := by
  rw [Host.reduce_eq_foldl, hinit]
  exact foldl_andi_const v x hx _

/-- A reduction by AND of a one-bit mask every bit of which is 1, from an initial value whose element is 1, is 1 at
    every result index. -/
theorem reduce_andi_all_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) :
    Host.reduce IntOp.andi x init h hu j = 1#1 :=
  reduce_andi_const 1#1 x init h hu hx hinit j

end Cert.LibReduceAnd
-- ==== Proof.KTake.lean ====
/-
  The kernel's row lookup before the projection, read at one entry.

  The flattened ids `xf : [16384]` are wrapped (`a + 128000` for `a < 0`), tested against `[0, 127999]`, and used as
  start indices of a row gather from the table `E : [128000, 128]`; an entry whose id fails the test is replaced by
  the fill constant. The gather clamps its start index into `[0, 127999]`, so entry `(n, k)` of the gathered array is
  `E[row (xf n), k]`; and when every id is in range every test passes, the fill is never selected, and the looked-up
  array is `(n, k) ↦ E[row (xf n), k]`.
-/
import proofs.«177015_j47837345743217_2_alg».proof.KernelIdeal
import proofs.«177015_j47837345743217_2_alg».proof.Proof.Gen.KernelIdeal
import proofs.«177015_j47837345743217_2_alg».proof.Proof.Spec
import proofs.«177015_j47837345743217_2_alg».proof.Proof.LibReduceAnd
import Idealize.ShloMosaic.Lib.ValueIdx

noncomputable section

namespace Cert.KernelIdeal.KVal

open Cert.KernelIdeal Idealize.ShloMosaic Idealize.ShloMosaic.ValueIdx Cert.Embed

open Facts₀ Facts

/-- The wrapped ids as a column `[16384, 1]`: the start indices of the gather. -/
def startCol (xf : IVec S16384 32) : IVec S16384x1 32 :=
  broadcastInDim S16384x1 ![0] bcast_S16384_S16384x1_0
    (select (cmpi CmpIPredicate.slt xf (broadcastInDim S16384 ![] bcast_S_S16384 (constantI S_ 32 0#32)))
      (addi xf (broadcastInDim S16384 ![] bcast_S_S16384 (constantI S_ 32 128000#32))) xf)

/-- Entry `(n, 0)` of the start column is the wrapped id `n`. -/
theorem startCol_apply (xf : IVec S16384 32) (n : Fin 16384) (z : Fin 1) : startCol xf (ix2 n z) = wrap (xf (ix1 n)) := by
  show wrap (xf _) = wrap (xf (ix1 n))
  refine congrArg (fun q => wrap (xf q)) ?_
  funext a
  match a with
  | ⟨0, _⟩ => rfl

/-- Every entry of the start column is some id, wrapped. -/
theorem startCol_eq (xf : IVec S16384 32) (i : S16384x1.Idx) : ∃ q, startCol xf i = wrap (xf q) := ⟨_, rfl⟩

/-- The test bits reduced along the unit axis: one bit per id, 1 when the wrapped id names a row. -/
def maskRow (xf : IVec S16384 32) : IVec S16384 1 :=
  (fun x v => Host.reduce IntOp.andi x v reducesTo_S16384x1_S16384_d1 h_S_)
    (andi
      (cmpi CmpIPredicate.sge (startCol xf) (broadcastInDim S16384x1 ![] bcast_S_S16384x1 (constantI S_ 32 0#32)))
      (cmpi CmpIPredicate.sle (startCol xf)
        (broadcastInDim S16384x1 ![0, 1] bcast_S1x1_S16384x1_0_1
          (broadcastInDim S1x1 ![1] bcast_S1_S1x1_1 (constantI S1 32 127999#32)))))
    (constantI S_ 1 1#1)

/-- When every id is in range every bit is 1. -/
theorem maskRow_eq (xf : IVec S16384 32) (hx : ∀ q, InRange (xf q)) (j : S16384.Idx) : maskRow xf j = 1#1 := by
  unfold maskRow
  refine Cert.LibReduceAnd.reduce_andi_all_one _ _ _ _ (fun i => ?_) rfl j
  obtain ⟨q, hq⟩ := startCol_eq xf i
  show IntOp.andi (IntOp.cmpi .sge (startCol xf i) 0#32) (IntOp.cmpi .sle (startCol xf i) 127999#32) = 1#1
  rw [hq]
  exact valid_of_inRange (hx q)

/-- The lookup's operations, in the program's order, as one function of the flattened ids and the table: the gathered
    rows where the id's bit is 1, the fill constant elsewhere. -/
def takeRows {F : FTy → Type} [FloatOps F] (xf : IVec S16384 32) (E : FVec F S128000x128 .f32) : FVec F S16384x128 .f32 :=
  select (broadcastInDim S16384x128 ![0] bcast_S16384_S16384x128_0 (maskRow xf))
    ((fun x i => Host.gather gather_S128000x128_S16384x1_S16384x128_1_0_n_n_0_1_1128 x i) E (startCol xf))
    (broadcastInDim S16384x128 ![] bcast_S_S16384x128 (constant S_ .f32 0x7FC00000#32))

/-- THE ROW GATHER READ AT `(n, k)`: the table at the start index `idx[n, 0]`, read signed and clamped into
    `[0, 127999]`, and column `k`. -/
theorem gather_rows_apply {α : Type} (E : S128000x128.Idx → α) (idx : IVec S16384x1 32) (n : Fin 16384) (k : Fin 128) :
    Host.gather gather_S128000x128_S16384x1_S16384x128_1_0_n_n_0_1_1128 E idx (ix2 n k)
      = E (ix2 (⟨min (idx (ix2 n (0 : Fin 1))).toInt.toNat (128000 - 1), by omega⟩ : Fin 128000) k) := by
  unfold Host.gather
  refine congrArg E ?_
  funext a
  refine Fin.ext ?_
  match a with
  | ⟨0, _⟩ =>
    show gather_S128000x128_S16384x1_S16384x128_1_0_n_n_0_1_1128.start (ix2 n k) idx 0
        + gather_S128000x128_S16384x1_S16384x128_1_0_n_n_0_1_1128.batchCoord (ix2 n k) 0
        + gather_S128000x128_S16384x1_S16384x128_1_0_n_n_0_1_1128.offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128000x128_S16384x1_S16384x128_1_0_n_n_0_1_1128.startIndexMap from List.mem_singleton.mpr rfl)]
    have hsi : gather_S128000x128_S16384x1_S16384x128_1_0_n_n_0_1_1128.siIdx (ix2 n k)
        ⟨List.idxOf (0 : Fin 2) gather_S128000x128_S16384x1_S16384x128_1_0_n_n_0_1_1128.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S128000x128_S16384x1_S16384x128_1_0_n_n_0_1_1128.start (ix2 n k) idx 1
        + gather_S128000x128_S16384x1_S16384x128_1_0_n_n_0_1_1128.batchCoord (ix2 n k) 1
        + gather_S128000x128_S16384x1_S16384x128_1_0_n_n_0_1_1128.offCoord (ix2 n k) 1 = k.val
    rw [GatherDims.batchCoord_eq_zero _ _ _ List.not_mem_nil]
    unfold GatherDims.start
    rw [dif_neg (show ¬ (1 : Fin 2) ∈ gather_S128000x128_S16384x1_S16384x128_1_0_n_n_0_1_1128.startIndexMap by decide)]
    unfold GatherDims.offCoord
    rw [dif_pos (show (1 : Fin 2) ∈ gather_S128000x128_S16384x1_S16384x128_1_0_n_n_0_1_1128.sKept by decide)]
    simp only [Nat.zero_add, Nat.add_zero]
    rfl

/-- When every id is in range, the looked-up array at `(n, k)` is the table's row `row (xf n)` at column `k`. -/
theorem takeRows_apply (xf : IVec S16384 32) (E : FVec Ideal S128000x128 .f32) (hx : ∀ q, InRange (xf q))
    (n : Fin 16384) (k : Fin 128) : takeRows xf E (ix2 n k) = E (ix2 (row (xf (ix1 n))) k) := by
  unfold takeRows
  rw [select_apply]
  show Scalar.select (maskRow xf _) (Host.gather gather_S128000x128_S16384x1_S16384x128_1_0_n_n_0_1_1128 E (startCol xf) (ix2 n k)) _ = _
  rw [maskRow_eq xf hx, select_one, gather_rows_apply]
  refine congrArg (fun r : Fin 128000 => E (ix2 r k)) (Fin.ext ?_)
  show min (startCol xf (ix2 n (0 : Fin 1))).toInt.toNat (128000 - 1) = min (wrap (xf (ix1 n))).toInt.toNat 127999
  rw [startCol_apply]

end Cert.KernelIdeal.KVal

end
-- ==== Proof.KMatmul.lean ====
/-
  The kernel body's one store, read at one entry: the matrix product of the two loaded blocks into a zero
  accumulator. Entry `(p, q)` of the product of `x0 : [4096, 128]` and `x1 : [128, 1024]` is
  `∑ k, x0[p, k] · x1[k, q]` over the one contracted axis of extent 128.
-/
import proofs.«177015_j47837345743217_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.ValueIdx

open Facts₀ Facts

/-- The product's dimension numbers: rows × contraction against contraction × columns. -/
abbrev Dk : DotDims S4096x128 S128x1024 S4096x1024 := dot_S4096x128_S128x1024_S4096x1024_1_0_0_1_n_n

theorem lhs_row (i : S4096x1024.Idx) (q : Dk.contr.Idx) : (Dk.lhsIdx i q 0).val = (i 0).val := by
  unfold DotDims.lhsIdx
  rw [dif_neg (show ¬(0 : Fin S4096x128.rank) ∈ Dk.lhsBatch by decide),
    dif_pos (show (0 : Fin S4096x128.rank) ∈ Dk.lhsNonContracting by decide)]
  rfl
theorem lhs_col (i : S4096x1024.Idx) (q : Dk.contr.Idx) : (Dk.lhsIdx i q 1).val = (q ⟨0, by decide⟩).val :=
  Dk.lhsIdx_val_of_single rfl i q
theorem rhs_row (i : S4096x1024.Idx) (q : Dk.contr.Idx) : (Dk.rhsIdx i q 0).val = (q ⟨0, by decide⟩).val :=
  Dk.rhsIdx_val_of_single rfl i q
theorem rhs_col (i : S4096x1024.Idx) (q : Dk.contr.Idx) : (Dk.rhsIdx i q 1).val = (i 1).val := by
  unfold DotDims.rhsIdx
  rw [dif_neg (show ¬(1 : Fin S128x1024.rank) ∈ Dk.rhsBatch by decide),
    dif_pos (show (1 : Fin S128x1024.rank) ∈ Dk.rhsNonContracting by decide)]
  rfl

/-- THE STORED BLOCK AT `(p, q)`: row `p` of the first block against column `q` of the second. -/
theorem pay_apply (x0 : Vec Ideal S4096x128 .bf16) (x1 : Vec Ideal S128x1024 .bf16) (p : Fin 4096) (q : Fin 1024) :
    k0_pay1 x0 x1 (ix2 p q) = ∑ k : Fin 128, x0 (ix2 p k) * x1 (ix2 k q) := by
  unfold k0_pay1
  rw [shapeCast_self, shapeCast_self]
  simp only [matmul]
  rw [Ideal.matmul_constant_zero_apply, ← Equiv.sum_comp (contrEquiv1 Dk 128 rfl rfl).symm]
  refine Finset.sum_congr rfl fun k _ => ?_
  have hk := contrEquiv1_symm_val Dk 128 rfl rfl k
  have el : Dk.lhsIdx (ix2 p q) ((contrEquiv1 Dk 128 rfl rfl).symm k) = ix2 p k := funext fun a => Fin.ext (by
    match a with
    | ⟨0, _⟩ => exact lhs_row _ _
    | ⟨1, _⟩ => exact (lhs_col _ _).trans hk)
  have er : Dk.rhsIdx (ix2 p q) ((contrEquiv1 Dk 128 rfl rfl).symm k) = ix2 k q := funext fun a => Fin.ext (by
    match a with
    | ⟨0, _⟩ => exact (rhs_row _ _).trans hk
    | ⟨1, _⟩ => exact rhs_col _ _)
  rw [el, er]

end Cert.KernelIdeal.KVal

end
-- ==== Proof.KBlocks.lean ====
/-
  From blocks to the array. The region runs four points; point `t` reads rows `[4096 t, 4096 t + 4096)` of the
  looked-up array `A : [16384, 128]` and the whole projection `B : [128, 1024]`, and writes rows
  `[4096 t, 4096 t + 4096)` of the output `[16384, 1024]`. Row `r` of the output is written by point `r / 4096` and by no
  other, and entry `(r, q)` of what it writes is `∑ k, A[r, k] · B[k, q]`: the output array after the region is the
  matrix product of the two arrays as the region finds them.
-/
import proofs.«177015_j47837345743217_2_alg».proof.Proof.Gen.KernelIdeal.Frame
import proofs.«177015_j47837345743217_2_alg».proof.Proof.KMatmul
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Entry `(r, q)` of the product of a `[16384, 128]` array and a `[128, 1024]` array. -/
def prodAt (A : S16384x128.Idx → EReal) (B : S128x1024.Idx → EReal) (r : Fin 16384) (q : Fin 1024) : EReal :=
  ∑ k : Fin 128, A (ix2 r k) * B (ix2 k q)

/-- The product as an array. -/
def prod (A : S16384x128.Idx → EReal) (B : S128x1024.Idx → EReal) : S16384x1024.Idx → EReal :=
  fun i => prodAt A B (i 0) (i 1)

theorem hz : (![0, 0] : Fin 2 → Nat) = fun _ => 0 := funext fun a => by fin_cases a <;> rfl

/-- The index maps over the grid: the first input and the output move together along the rows, the second input
    stays, nothing moves along the columns. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of the product of the two input arrays as the region finds them. -/
theorem flushed_eq (c : Dev nD) (t : Fin cfg0.N) :
    (dats m 0 c).flushed 2 t = ((cfg0.win 2).blk t).view.read (Elt Ideal) (prod (V m c main_v2) (V m c main_v3)) := by
  show (cfg0.win 2).cut (grid0.coords t) ((dats m 0 c).after 2 t) = _
  rw [after0_2]
  unfold out0_2
  rw [View.canon_unit_zero hz]
  simp only [View.ld_unit_zero (S := S4096x128) hz, View.ld_unit_zero (S := S128x1024) hz]
  obtain ⟨e0, e1, e2, e3, e4, e5⟩ := idx_facts t
  funext j
  obtain ⟨p, q, rfl⟩ : ∃ (p : Fin 4096) (q : Fin 1024), j = ix2 p q := ⟨j 0, j 1, eq_ix2 j⟩
  show k0_pay1 (iblk m c 0 t) (iblk m c 1 t) (ix2 p q)
    = prodAt (V m c main_v2) (V m c main_v3) (((cfg0.win 2).blk t).view.emb (ix2 p q) 0) (((cfg0.win 2).blk t).view.emb (ix2 p q) 1)
  refine (pay_apply (iblk m c 0 t) (iblk m c 1 t) p q).trans ?_
  unfold prodAt
  refine Finset.sum_congr rfl fun k _ => ?_
  have hA : iblk m c 0 t (ix2 p k) = V m c main_v2 (ix2 (((cfg0.win 2).blk t).view.emb (ix2 p q) 0) k) := by
    show V m c main_v2 (((cfg0.win 0).blk t).view.emb (ix2 p k)) = V m c main_v2 (ix2 (((cfg0.win 2).blk t).view.emb (ix2 p q) 0) k)
    refine congrArg (V m c main_v2) ?_
    funext a; apply Fin.ext
    match a with
    | ⟨0, _⟩ => show win0_0.index t (0 : Fin 2) * 4096 + 1 * p.val = win0_2.index t (0 : Fin 2) * 4096 + 1 * p.val; omega
    | ⟨1, _⟩ => show win0_0.index t (1 : Fin 2) * 128 + 1 * k.val = k.val; omega
  have hB : iblk m c 1 t (ix2 k q) = V m c main_v3 (ix2 k (((cfg0.win 2).blk t).view.emb (ix2 p q) 1)) := by
    show V m c main_v3 (((cfg0.win 1).blk t).view.emb (ix2 k q)) = V m c main_v3 (ix2 k (((cfg0.win 2).blk t).view.emb (ix2 p q) 1))
    refine congrArg (V m c main_v3) ?_
    funext a; apply Fin.ext
    match a with
    | ⟨0, _⟩ => show win0_1.index t (0 : Fin 2) * 128 + 1 * k.val = k.val; omega
    | ⟨1, _⟩ => show win0_1.index t (1 : Fin 2) * 1024 + 1 * q.val = win0_2.index t (1 : Fin 2) * 1024 + 1 * q.val; omega
  rw [hA, hB]

/-- An index of the output array is in point `t`'s block iff each coordinate is in the block's range on its axis. -/
theorem mem_blk (t : Fin cfg0.N) (i : S16384x1024.Idx) :
    i ∈ ((cfg0.win 2).blk t).view.set ↔ ∀ a : Fin 2, win0_2.index t a * S4096x1024.size a ≤ (i a).val ∧ (i a).val < win0_2.index t a * S4096x1024.size a + S4096x1024.size a := by
  show i ∈ ((View.whole main_v4).slice (win0_2.rect t)).set ↔ _
  rw [View.set_slice_whole, Rect.mem_set_unit]
  exact Iff.rfl

/-- Every run of 4096 rows is some point's. -/
theorem idx_onto : ∀ (q0 : Fin 4), ∃ t : Fin cfg0.N, win0_2.index t = ![q0.val, 0] :=
  (by decide +kernel : ∀ (q0 : Fin 4), ∃ t : Fin grid0.N, win0_2.index t = ![q0.val, 0])

/-- Every index of the output array is in the block of the point that owns its row. -/
theorem cover (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := idx_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 1024 ≤ (i 1).val ∧ (i 1).val < win0_2.index t (1 : Fin 2) * 1024 + 1024; omega

/-- THE OUTPUT ARRAY after the region: the product of the two input arrays as the region finds them. -/
theorem final (c : Dev nD) : (dats m 0 c).arrAt 2 cfg0.N = prod (V m c main_v2) (V m c main_v3) :=
  (dats m 0 c).arrAt_eq_of_cover 2 (prod (V m c main_v2) (V m c main_v3)) (fun t _ => flushed_eq m c t) cover

end Cert.KernelIdeal.KVal

end
-- ==== Proof.KRun.lean ====
/-
  The kernel's program read end to end. Before the region the token ids `x : [4, 4096]` are flattened to `[16384]`
  (id `(b, s)` at position `4096 b + s`), the rows are looked up, and both operands change float format (the
  identity on extended reals); the region multiplies; after it the `[16384, 1024]` product is reshaped to
  `[4, 4096, 1024]` (row `4096 b + s` becomes `(b, s)`). So entry `(b, s, j)` of the result is
  `∑ k, E[row (x b s), k] · W[k, j]` whenever every id is in range.
-/
import proofs.«177015_j47837345743217_2_alg».proof.Proof.Gen.KernelIdeal.Frame
import proofs.«177015_j47837345743217_2_alg».proof.Proof.KTake
import proofs.«177015_j47837345743217_2_alg».proof.Proof.KBlocks
import Idealize.ShloMosaic.Lib.StableHlo.Run
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx Idealize.ShloMosaic.StableHlo Cert.Embed

variable (m : (ℓ : Loc nD τ sig) → Buf (Elt Ideal) ℓ) (ρ : Dev nD → PrngReg)

/-- The projection as the region finds it: the argument, its float format changed. -/
theorem V_v3 (c : Dev nD) : V m c main_v3
    = (truncf .bf16 (m ((c : Thread nD τ).loc main_arg2) : FVec Ideal S128x1024 .f32) bitsLt_bf16_f32 : FVec Ideal S128x1024 .bf16) := by
  unfold Gen.V Gen.V0
  simp only [Gen.hostOps0, Gen.hostOps0_1, Gen.hostOps0_2, List.flatten_cons, List.flatten_nil, List.append_nil, List.cons_append, List.nil_append]
  after_results

set_option maxHeartbeats 1600000 in
set_option maxRecDepth 100000 in
/-- The looked-up rows as the region finds them: the lookup of the flattened ids in the table, its float format changed. -/
theorem V_v2 (c : Dev nD) : V m c main_v2
    = (truncf .bf16 (takeRows (shapeCast S16384 (m ((c : Thread nD τ).loc main_arg0) : IVec S4x4096 32) shapeCasts_S4x4096_S16384)
        (m ((c : Thread nD τ).loc main_arg1) : FVec Ideal S128000x128 .f32)) bitsLt_bf16_f32 : FVec Ideal S16384x128 .bf16) := by
  suffices h : ∀ R : Buf (Elt Ideal) ((c : Thread nD τ).loc main_v2),
      (truncf .bf16 (takeRows (shapeCast S16384 (m ((c : Thread nD τ).loc main_arg0) : IVec S4x4096 32) shapeCasts_S4x4096_S16384)
        (m ((c : Thread nD τ).loc main_arg1) : FVec Ideal S128000x128 .f32)) bitsLt_bf16_f32 : FVec Ideal S16384x128 .bf16) = R →
      V m c main_v2 = R from h _ rfl
  intro R hR
  unfold Gen.V Gen.V0
  simp only [Gen.hostOps0, Gen.hostOps0_1, Gen.hostOps0_2, List.flatten_cons, List.flatten_nil, List.append_nil, List.cons_append, List.nil_append]
  after_results
  exact Eq.trans rfl hR

/-- The result buffer after the operations that follow the region: the region's output array, reshaped. -/
theorem tail_v5 (c : Dev nD) : Pipeline.afterTail₀ cfgs (dats m) 0 (V0 m) [hostOps1] c main_v5
    = shapeCast S4x4096x1024 ((dats m 0 c).arrAt 2 cfg0.N) shapeCasts_S16384x1024_S4x4096x1024 := by
  unfold Pipeline.afterTail₀
  show StableHlo.after hostOps1 _ (Proc.devRef .tc main_v5) = _
  after_results
  rw [Pipeline.withArrays_arr spec0 launch0.win.arr_inj c _ _ 2]
  rfl

/-- THE RESULT IS `G`: the reshaped product of the looked-up rows and the projection, entry by entry. -/
theorem result_eq (x : IVec S4x4096 32) (E : FVec Ideal S128000x128 .f32) (W : FVec Ideal S128x1024 .f32)
    (hx : ∀ i, InRange (x i)) :
    shapeCast S4x4096x1024
        (prod (truncf .bf16 (takeRows (shapeCast S16384 x shapeCasts_S4x4096_S16384) E) bitsLt_bf16_f32)
          (truncf .bf16 W bitsLt_bf16_f32)) shapeCasts_S16384x1024_S4x4096x1024
      = G x E W := by
  funext i
  obtain ⟨b, s, j, rfl⟩ : ∃ (b : Fin 4) (s : Fin 4096) (j : Fin 1024), i = ix3 b s j := ⟨i 0, i 1, i 2, eq_ix3 i⟩
  rw [G_apply]
  have hn : b.val * 4096 + s.val < 16384 := by omega
  rw [shapeCast_apply _ shapeCasts_S16384x1024_S4x4096x1024 (ix3 b s j) (ix2 (⟨b.val * 4096 + s.val, hn⟩ : Fin 16384) j) (by
    rw [Shape.rowMajor_val_two, Shape.rowMajor_val_three]; rfl)]
  show prodAt _ _ (⟨b.val * 4096 + s.val, hn⟩ : Fin 16384) j = entry x E W b s j
  unfold prodAt entry
  refine Finset.sum_congr rfl fun k _ => ?_
  rw [truncf_apply, truncf_apply, takeRows_apply (shapeCast S16384 x shapeCasts_S4x4096_S16384) E (fun q => hx _) ⟨_, hn⟩ k,
    shapeCast_apply x shapeCasts_S4x4096_S16384 (ix1 (⟨b.val * 4096 + s.val, hn⟩ : Fin 16384)) (ix2 b s) (by
      rw [Shape.rowMajor_val_two, Shape.rowMajor_val_one]; rfl)]

/-- THE RUN: every weakly fair execution of the kernel's program terminates, nothing faults, the result buffer ends at
    `G` of the three argument arrays (every id in range), and the arguments end unchanged. -/
theorem run (hx : ∀ (c : Dev nD) (i : S4x4096.Idx), InRange (m ((c : Thread nD τ).loc main_arg0) i)) :
    θ_run defs (onTc (τ := τ) (main (F := Ideal))) ⟨m, fun _ => 0, ρ⟩ (fun r => ∀ c : Dev nD,
      r.2.mem ((c.tc : Thread nD τ).loc main_v5)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v5 (Pipeline.mem_restRefs_of main_v5 (by decide) (by decide))).trans
        ((tail_v5 m c).trans (by rw [final, V_v2, V_v3]; exact result_eq _ _ _ (hx c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KVal

end
-- ==== Proof.RefRun.lean ====
/-
  The reference program's @main as one straight line of its 24 host operations — the matrix product, then the 23
  operations of the row lookup it calls, the nested select among them, each over the buffers of its call — and the
  run read back: every weakly fair execution terminates, the result buffer holds the operations' composed function
  of the three argument arrays (`out`), and the argument arrays are unchanged.
-/
import proofs.«177015_j47837345743217_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: the product of the two tables; then the lookup's
    twenty-three — the zero and its broadcast, the sign test, the table height and its broadcast, the shifted
    ids, the select between shifted and plain ids (the nested call's one operation), the ids with a trailing unit
    axis, the two bounds and their broadcasts, the two bound tests and their conjunction, the conjunction's
    reduction over the unit axis, the row gather, the reduced test broadcast over the columns, the fill constant
    and its broadcast, and the final select. -/
abbrev ops : List (HloOp τ sig (Elt F)) :=
  [ binary main_arg1 main_arg2 main_v0 ((fun l r => Host.dotGeneral dot_S128000x128_S128x1024_S128000x1024_1_0_0_1_n_n none l r) : (⟨S128000x128, .f32⟩ : BufTy).Contents (Elt F) → (⟨S128x1024, .f32⟩ : BufTy).Contents (Elt F) → (⟨S128000x1024, .f32⟩ : BufTy).Contents (Elt F)),
    TRef.nullary main_call0.c (constantI S_ 32 0#32),
    TRef.unary main_call0.c main_call0.v0 (broadcastInDim S4x4096 ![] bcast_S_S4x4096),
    TRef.binary (.of main_arg0) main_call0.v0 main_call0.v1 (cmpi .slt),
    TRef.nullary main_call0.c_0 (constantI S_ 32 128000#32),
    TRef.unary main_call0.c_0 main_call0.v2 (broadcastInDim S4x4096 ![] bcast_S_S4x4096),
    TRef.binary (.of main_arg0) main_call0.v2 main_call0.v3 addi,
    TRef.ternary main_call0.v1 main_call0.v3 (.of main_arg0) main_call0.call0.v0 select,
    TRef.unary main_call0.call0.v0 main_call0.v5 (broadcastInDim S4x4096x1 ![0, 1] bcast_S4x4096_S4x4096x1_0_1),
    TRef.nullary main_call0.c_1 (constantI S1 32 127999#32),
    TRef.nullary main_call0.c_2 (constantI S_ 32 0#32),
    TRef.unary main_call0.c_2 main_call0.v6 (broadcastInDim S4x4096x1 ![] bcast_S_S4x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x4096x1 ![0, 1, 2] bcast_S1x1x1_S4x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x4096x1_S4x4096_d2 h_S_),
    TRef.binary (.of main_v0) main_call0.v5 main_call0.v13 (fun x i => Host.gather gather_S128000x1024_S4x4096x1_S4x4096x1024_2_0_n_n_0_2_11024 x i),
    TRef.unary main_call0.v12 main_call0.v14 (broadcastInDim S4x4096x1024 ![0, 1] bcast_S4x4096_S4x4096x1024_0_1),
    TRef.nullary main_call0.cst (constant S_ .f32 0x7FC00000#32),
    TRef.unary main_call0.cst main_call0.v15 (broadcastInDim S4x4096x1024 ![] bcast_S_S4x4096x1024),
    TRef.ternary main_call0.v14 main_call0.v13 main_call0.v15 main_call0.v16 select ]

-- twenty-four binds re-associated
set_option maxRecDepth 1024 in
/-- @main is that straight line: the two functions' definitions unfolded at their calls, both sides are one chain of
    host steps once sequencing is re-associated. -/
theorem main_eq (c : Dev nD) : main (F := F) c = seq ops := by
  simp only [main, fn_take.body, fn_where.body, seq, bind_assoc, pure_bind]

/-- The token ids with a negative id counted from the end of the table: `x + 128000` where `x < 0`, else `x`. -/
def wrapped (x : IVec S4x4096 32) : IVec S4x4096 32 :=
  select (cmpi .slt x (broadcastInDim S4x4096 ![] bcast_S_S4x4096 (constantI S_ 32 0#32)))
    (addi x (broadcastInDim S4x4096 ![] bcast_S_S4x4096 (constantI S_ 32 128000#32))) x

/-- The wrapped ids as the gather's start indices: a trailing unit axis added. -/
def starts (x : IVec S4x4096 32) : IVec S4x4096x1 32 :=
  broadcastInDim S4x4096x1 ![0, 1] bcast_S4x4096_S4x4096x1_0_1 (wrapped x)

/-- The range test of each start index: `0 ≤ i` and `i ≤ 127999`, one bit each. -/
def mask (x : IVec S4x4096 32) : IVec S4x4096x1 1 :=
  andi (cmpi .sge (starts x) (broadcastInDim S4x4096x1 ![] bcast_S_S4x4096x1 (constantI S_ 32 0#32)))
    (cmpi .sle (starts x) (broadcastInDim S4x4096x1 ![0, 1, 2] bcast_S1x1x1_S4x4096x1_0_1_2
      (broadcastInDim S1x1x1 ![2] bcast_S1_S1x1x1_2 (constantI S1 32 127999#32))))

/-- The result array as the operations' composed function of the three argument arrays: the rows of the product
    table gathered at the start indices where the range test, reduced over the unit axis and broadcast over the
    columns, holds, the fill constant elsewhere. -/
def out (x : IVec S4x4096 32) (E : FVec F S128000x128 .f32) (W : FVec F S128x1024 .f32) : FVec F S4x4096x1024 .f32 :=
  select
    (broadcastInDim S4x4096x1024 ![0, 1] bcast_S4x4096_S4x4096x1024_0_1
      (Host.reduce IntOp.andi (mask x) (constantI S_ 1 1#1) reducesTo_S4x4096x1_S4x4096_d2 h_S_))
    (Host.gather gather_S128000x1024_S4x4096x1_S4x4096x1024_2_0_n_n_0_2_11024
      (Host.dotGeneral dot_S128000x128_S128x1024_S128000x1024_1_0_0_1_n_n none E W) (starts x))
    (broadcastInDim S4x4096x1024 ![] bcast_S_S4x4096x1024 (constant S_ .f32 0x7FC00000#32))

attribute [local irreducible] Host.reduce Host.gather in
set_option maxRecDepth 8192 in
set_option maxHeartbeats 1600000 in
/-- The fold at the result buffer is `out` of the arguments' contents, by computation: each operation's result
    decides whether the buffer read is the one it writes, and the typed references' casts are the identity at
    these literal references. The reduction and the gather stay folded meanwhile. -/
theorem out_eq (V : Valuation τ sig (Elt F)) :
    after ops V (main_v1 : DevRef τ sig)
      = out (V (main_arg0 : DevRef τ sig)) (V (main_arg1 : DevRef τ sig)) (V (main_arg2 : DevRef τ sig)) := by
  simp only [after_cons, after_nil]
  rfl

/-- No operation writes an argument's buffer: the fold leaves each at its launch contents. -/
theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

theorem arg2_eq (V : Valuation τ sig (Elt F)) :
    after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- At the compiled mesh, for any float values, from any memory with zero counters: every weakly fair execution of
    @main terminates with the result buffer at `out` of the three argument arrays and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v1).trans (out_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference computes the specification. Its result array is the composed function `RefRun.out` of the three
  argument arrays (RefRun.lean); read at an index `(b, s, j)`, under the hypothesis that every token id lies in
  `[-128000, 128000)`:
  * the start index at `(b, s, 0)` is the wrapped id `wrap (x b s)`, and its range test is `valid (x b s)`, which is 1;
  * so the mask is 1 everywhere, its conjunction over the unit axis is 1 at every index (LibReduceAnd.lean), and the
    final select takes the gathered value, never the fill constant;
  * the gather reads row `min (wrap (x b s)) 127999` — the specification's `row (x b s)` — and column `j` of the product table;
  * the product table at `(row, j)` is `∑ k, E[row, k] · W[k, j]`, the specification's entry.
  Each step is stated over variables for the three arrays and the three coordinates; only the two closing theorems
  speak of the memory.
-/
import proofs.«177015_j47837345743217_2_alg».proof.Proof.RefRun
import proofs.«177015_j47837345743217_2_alg».proof.Proof.Spec
import proofs.«177015_j47837345743217_2_alg».proof.Proof.LibReduceAnd
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.RefRun Idealize.ShloMosaic Idealize.ShloMosaic.ValueIdx
  Idealize.ShloMosaic.TcCoe Idealize.SL.Sem

/-! ## The integer side: start indices and their range test -/

/-- The wrapped ids at an index: the specification's `wrap` of the id there. -/
theorem wrapped_apply (x : IVec S4x4096 32) (i : S4x4096.Idx) : wrapped x i = Cert.Embed.wrap (x i) := rfl

/-- The start index at `(b, s, z)` is the wrapped id at `(b, s)`: the trailing unit axis is a broadcast. -/
theorem starts_apply (x : IVec S4x4096 32) (b : Fin 4) (s : Fin 4096) (z : Fin 1) :
    starts x (ix3 b s z) = Cert.Embed.wrap (x (ix2 b s)) := by
  unfold starts broadcastInDim
  rw [wrapped_apply]
  congr 2
  funext a
  match a with
  | ⟨0, _⟩ => rfl
  | ⟨1, _⟩ => rfl

/-- The range test at `(b, s, z)` is the specification's `valid` of the id at `(b, s)`: both bounds are splat
    constants read through their broadcasts. -/
theorem mask_apply (x : IVec S4x4096 32) (b : Fin 4) (s : Fin 4096) (z : Fin 1) :
    mask x (ix3 b s z) = Cert.Embed.valid (x (ix2 b s)) := by
  show IntOp.andi (IntOp.cmpi .sge (starts x (ix3 b s z)) 0#32) (IntOp.cmpi .sle (starts x (ix3 b s z)) 127999#32) = _
  rw [starts_apply]
  rfl

/-- With every id in range the range test is 1 at every index. -/
theorem mask_eq_one (x : IVec S4x4096 32) (hx : ∀ i : S4x4096.Idx, Cert.Embed.InRange (x i)) (i : S4x4096x1.Idx) :
    mask x i = 1#1 := by
  obtain ⟨b, s, z, rfl⟩ : ∃ (b : Fin 4) (s : Fin 4096) (z : Fin 1), i = ix3 b s z := ⟨i 0, i 1, i 2, eq_ix3 i⟩
  rw [mask_apply]
  exact Cert.Embed.valid_of_inRange (hx _)

/-- With every id in range the final select's condition — the range test reduced by AND over the unit axis, then
    broadcast over the columns — is 1 at every index. -/
theorem cond_eq_one (x : IVec S4x4096 32) (hx : ∀ i : S4x4096.Idx, Cert.Embed.InRange (x i)) (i : S4x4096x1024.Idx) :
    broadcastInDim S4x4096x1024 ![0, 1] bcast_S4x4096_S4x4096x1024_0_1
      (Host.reduce IntOp.andi (mask x) (constantI S_ 1 1#1) reducesTo_S4x4096x1_S4x4096_d2 h_S_) i = 1#1 := by
  unfold broadcastInDim
  exact Cert.LibReduceAnd.reduce_andi_all_one _ _ _ _ (mask_eq_one x hx) rfl _

/-! ## The gather and the product, each read at an index -/

/-- The row gather read at `(b, s, j)`: the table at the row the start index `(b, s, 0)` names — read signed and
    clamped into `[0, 127999]` — and column `j`. (Operand axis 0 is collapsed and indexed by the start index, axis 1
    is the one offset axis and carries the result's last coordinate.) -/
theorem gather_apply {α : Type} (tbl : S128000x1024.Idx → α) (idx : IVec S4x4096x1 32) (b : Fin 4) (s : Fin 4096)
    (j : Fin 1024) :
    Host.gather gather_S128000x1024_S4x4096x1_S4x4096x1024_2_0_n_n_0_2_11024 tbl idx (ix3 b s j)
      = tbl (ix2 (⟨min (idx (ix3 b s 0)).toInt.toNat (128000 - 1), by omega⟩ : Fin 128000) j) := by
  unfold Host.gather
  congr 1
  funext a
  refine Fin.ext ?_
  match a with
  | ⟨0, _⟩ =>
    show GatherDims.start _ (ix3 b s j) idx 0 + GatherDims.batchCoord _ (ix3 b s j) 0 + GatherDims.offCoord _ (ix3 b s j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S128000x1024_S4x4096x1_S4x4096x1024_2_0_n_n_0_2_11024.startIndexMap from
      List.mem_singleton.mpr rfl)]
    have hsi : gather_S128000x1024_S4x4096x1_S4x4096x1024_2_0_n_n_0_2_11024.siIdx (ix3 b s j)
        ⟨List.idxOf (0 : Fin 2) gather_S128000x1024_S4x4096x1_S4x4096x1024_2_0_n_n_0_2_11024.startIndexMap,
          List.idxOf_lt_length_iff.2 (List.mem_singleton.mpr rfl)⟩ = ix3 b s 0 := by
      funext c; refine Fin.ext ?_
      match c with
      | ⟨0, _⟩ => rfl
      | ⟨1, _⟩ => rfl
      | ⟨2, _⟩ => rfl
    rw [hsi]
    rfl
  | ⟨1, _⟩ =>
    show GatherDims.start _ (ix3 b s j) idx 1 + GatherDims.batchCoord _ (ix3 b s j) 1 + GatherDims.offCoord _ (ix3 b s j) 1 = _
    rw [GatherDims.batchCoord_eq_zero _ _ _ List.not_mem_nil]
    unfold GatherDims.start
    rw [dif_neg (by decide)]
    simp only [Nat.add_zero, Nat.zero_add]
    rfl

/-- The product table read at `(r, j)`, at the ideal values: the sum over the contracted coordinate of the products
    of the entries, `∑ k, E[r, k] · W[k, j]` (the contraction's index set re-indexed by its one coordinate). -/
theorem dot_apply (E : FVec Ideal S128000x128 .f32) (W : FVec Ideal S128x1024 .f32) (r : Fin 128000) (j : Fin 1024) :
    Host.dotGeneral dot_S128000x128_S128x1024_S128000x1024_1_0_0_1_n_n none E W (ix2 r j)
      = ∑ k : Fin 128, E (ix2 r k) * W (ix2 k j) := by
  show FloatOps.dotGeneral _ none _ E W (ix2 r j) = _
  rw [Ideal.dotGeneral_apply,
    ← Equiv.sum_comp (contrEquiv1 dot_S128000x128_S128x1024_S128000x1024_1_0_0_1_n_n 128 rfl rfl).symm]
  refine Finset.sum_congr rfl fun c _ => ?_
  have c2 := contrEquiv1_symm_val dot_S128000x128_S128x1024_S128000x1024_1_0_0_1_n_n 128 rfl rfl c
  have l2 : dot_S128000x128_S128x1024_S128000x1024_1_0_0_1_n_n.lhsIdx (ix2 r j)
      ((contrEquiv1 _ 128 rfl rfl).symm c) = ix2 r c := by
    funext ax; apply Fin.ext
    match ax with
    | ⟨0, _⟩ => simp [DotDims.lhsIdx, dot_S128000x128_S128x1024_S128000x1024_1_0_0_1_n_n]; rfl
    | ⟨1, _⟩ => simp [DotDims.lhsIdx, dot_S128000x128_S128x1024_S128000x1024_1_0_0_1_n_n]; exact c2
  have r2 : dot_S128000x128_S128x1024_S128000x1024_1_0_0_1_n_n.rhsIdx (ix2 r j)
      ((contrEquiv1 _ 128 rfl rfl).symm c) = ix2 c j := by
    funext ax; apply Fin.ext
    match ax with
    | ⟨0, _⟩ => simp [DotDims.rhsIdx, dot_S128000x128_S128x1024_S128000x1024_1_0_0_1_n_n]; exact c2
    | ⟨1, _⟩ => simp [DotDims.rhsIdx, dot_S128000x128_S128x1024_S128000x1024_1_0_0_1_n_n]; rfl
  rw [l2, r2]

/-! ## The reference is the specification -/

/-- Under the range hypothesis on every token id the operations' composed function of the three arrays is the
    specification `G`, index by index: the select's condition is 1, the gathered row is `row (x b s)`, the table's
    entry there is the specification's sum. -/
theorem out_eq_G (x : IVec S4x4096 32) (E : FVec Ideal S128000x128 .f32) (W : FVec Ideal S128x1024 .f32)
    (hx : ∀ i : S4x4096.Idx, Cert.Embed.InRange (x i)) :
    out (F := Ideal) x E W = Cert.Embed.G x E W := by
  funext i
  obtain ⟨b, s, j, rfl⟩ : ∃ (b : Fin 4) (s : Fin 4096) (j : Fin 1024), i = ix3 b s j := ⟨i 0, i 1, i 2, eq_ix3 i⟩
  rw [Cert.Embed.G_apply]
  unfold out
  rw [select_apply, cond_eq_one x hx, select_one, gather_apply, dot_apply]
  have hrow : (⟨min (starts x (ix3 b s 0)).toInt.toNat (128000 - 1), by omega⟩ : Fin 128000)
      = Cert.Embed.row (x (ix2 b s)) :=
    Fin.ext (by show min _ _ = min _ _; rw [starts_apply])
  rw [hrow]
  rfl

/-! ## The two statements about the run -/

/-- Unconditionally: every weakly fair execution of the reference terminates, nothing faults, and the three argument
    arrays end unchanged. -/
theorem frame_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_out m ρ)

/-- Under the range hypothesis on every token id: every weakly fair execution of the reference terminates with the
    result buffer at the specification `G` of the three argument arrays, and the arguments unchanged. -/
theorem run (m : (ℓ : Loc nD τ sig) → Buf (Elt Ideal) ℓ) (ρ : Dev nD → PrngReg)
    (hx : ∀ (c : Dev nD) (i : S4x4096.Idx), Cert.Embed.InRange (m ((c.tc : Thread nD τ).loc main_arg0) i)) :
    θ_run (defs (F := Ideal)) (onTc (τ := τ) (main (F := Ideal))) ⟨m, fun _ => 0, ρ⟩ (fun r => ∀ c : Dev nD,
      r.2.mem ((c.tc : Thread nD τ).loc main_v1)
        = Cert.Embed.G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (out_eq_G _ _ _ (hx c)), (h c).2⟩) (run_out m ρ)

end Cert.ReferenceIdeal.RefValue

end
-- ==== Proof.lean ====
/-
  Row lookup then projection, against projection then row lookup.

  The kernel's program looks up rows of the vocabulary table `E : [128000, 128]` by the token ids `x : [4, 4096]` and
  multiplies the looked-up `[16384, 128]` array by the projection `W : [128, 1024]`, 4096 rows per grid point; the
  reference multiplies the whole table by `W` and looks the rows of the product up. Both look a row up the same way:
  a negative id counts from the end, and an id outside `[-128000, 128000)` reads the fill constant. On extended
  reals the fill constant is `⊥`, and a row of `⊥` times a column of `W` is not `⊥` in general (it is `0` against a
  zero column), so the two programs differ at an id out of range: the precondition says every id is in range, which is
  where the reference's lookup is defined. For ids in range entry `(b, s, j)` of both results is
  `∑ k, E[row (x b s), k] · W[k, j]` (`Cert.Embed.G`, Proof/Spec.lean): the same 128 products, summed. Nothing here
  needs the float entries finite.

  Proof/PreRange.lean reads the precondition back at one id; Proof/KTake.lean, KMatmul.lean, KBlocks.lean, KRun.lean
  read the kernel's program (the lookup at an entry, the stored block at an entry, the blocks as one array, the whole
  run); Proof/RefRun.lean and RefValue.lean read the reference's. The word-level kernel needs its frame only.
-/
import proofs.«177015_j47837345743217_2_alg».proof.Defs
import proofs.«177015_j47837345743217_2_alg».proof.Proof.Gen.Kernel
import proofs.«177015_j47837345743217_2_alg».proof.Proof.Gen.Kernel.Frame
import proofs.«177015_j47837345743217_2_alg».proof.Proof.Gen.KernelIdeal
import proofs.«177015_j47837345743217_2_alg».proof.Proof.Gen.KernelIdeal.Frame
import proofs.«177015_j47837345743217_2_alg».proof.Proof.Gen.ReferenceIdeal
import proofs.«177015_j47837345743217_2_alg».proof.Proof.Gen.Pre_finite_inputs
import proofs.«177015_j47837345743217_2_alg».proof.Proof.PreRange
import proofs.«177015_j47837345743217_2_alg».proof.Proof.KRun
import proofs.«177015_j47837345743217_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.RefValue.frame_run m ρ

/-- The idealization rewrote no operation. -/
theorem preserves : Cert.preserves_Kernel_KernelIdeal := trivial

/-- Both programs end with `Cert.Embed.G` of the argument arrays: the precondition puts every id in range, on the
    kernel's memory and so on the reference's, which agrees with it on the arguments. -/
theorem algebraic : Cert.algebraic_KernelIdeal_ReferenceIdeal := by
  intro m ρ m' ρ' hpre hagree
  have hx : ∀ (c : Dev Cert.KernelIdeal.nD) (i : Cert.KernelIdeal.S4x4096.Idx),
      Cert.Embed.InRange (m ((c : Thread Cert.KernelIdeal.nD Cert.KernelIdeal.τ).loc Cert.KernelIdeal.main_arg0) i) :=
    fun c i => Cert.Embed.inRange_of_pre _ _ _ (hpre c) i
  have hx' : ∀ (c : Dev Cert.ReferenceIdeal.nD) (i : Cert.ReferenceIdeal.S4x4096.Idx),
      Cert.Embed.InRange (m' ((c : Thread Cert.ReferenceIdeal.nD Cert.ReferenceIdeal.τ).loc Cert.ReferenceIdeal.main_arg0) i) :=
    fun c i => by rw [(hagree c).1]; exact hx c i
  refine ⟨_, Cert.KernelIdeal.KVal.run m ρ hx, ?_⟩
  refine (θ_run Cert.ReferenceIdeal.defs _ _).mono (fun r h c => ⟨(h c).1.trans ?_, (h c).2⟩)
    (Cert.ReferenceIdeal.RefValue.run m' ρ' hx')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
